-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x208 : Shape := ⟨3, ![64, 2048, 208]⟩
abbrev S208x208 : Shape := ⟨2, ![208, 208]⟩
abbrev S208 : Shape := ⟨1, ![208]⟩
abbrev S_ : Shape := ⟨0, ![]⟩

class Facts : Prop where
  bcast_S_S64x2048x208 : S_.BroadcastsInDim S64x2048x208 (![] : Fin 0 → Fin S64x2048x208.rank)
  reducesTo_S64x2048x208_S_d0_1_2 : S64x2048x208.ReducesTo [0, 1, 2] S_
  h_S_ : 0 < S_.numel
  bcast_S_S208x208 : S_.BroadcastsInDim S208x208 (![] : Fin 0 → Fin S208x208.rank)
  reducesTo_S208x208_S_d0_1 : S208x208.ReducesTo [0, 1] S_
  bcast_S_S208 : S_.BroadcastsInDim S208 (![] : Fin 0 → Fin S208.rank)
  reducesTo_S208_S_d0 : S208.ReducesTo [0] S_

variable [Facts]

def fn_part1 {F : FTy → Type} [FloatOps F] (main_v13 : IVec S_ 1) (main_v16 : IVec S208x208 1) : IVec S_ 1 :=
  let main_c_5 : IVec S_ 1 := constantI S_ 1 1#1
  let main_v17 : IVec S_ 1 := (fun x v => Host.reduce IntOp.andi x v reducesTo_S208x208_S_d0_1 h_S_) main_v16 main_c_5
  let main_v18 : IVec S_ 1 := andi main_v13 main_v17
  main_v18

def fn {F : FTy → Type} [FloatOps F] (main_arg0 : FVec F S64x2048x208 .f32) (main_arg1 : FVec F S208x208 .f32) (main_arg2 : FVec F S208 .f32) (main_arg3 : FVec F S208x208 .f32) : IVec S_ 1 :=
  let main_v0 : FVec F S64x2048x208 .f32 := Host.absf main_arg0
  let main_cst : FVec F S_ .f32 := constant S_ .f32 0x7F800000#32
  let main_v1 : FVec F S64x2048x208 .f32 := broadcastInDim S64x2048x208 ![] bcast_S_S64x2048x208 main_cst
  let main_v2 : IVec S64x2048x208 1 := cmpf .olt main_v0 main_v1
  let main_c : IVec S_ 1 := constantI S_ 1 1#1
  let main_v3 : IVec S_ 1 := (fun x v => Host.reduce IntOp.andi x v reducesTo_S64x2048x208_S_d0_1_2 h_S_) main_v2 main_c
  let main_v4 : FVec F S208x208 .f32 := Host.absf main_arg1
  let main_cst_0 : FVec F S_ .f32 := constant S_ .f32 0x7F800000#32
  let main_v5 : FVec F S208x208 .f32 := broadcastInDim S208x208 ![] bcast_S_S208x208 main_cst_0
  let main_v6 : IVec S208x208 1 := cmpf .olt main_v4 main_v5
  let main_c_1 : IVec S_ 1 := constantI S_ 1 1#1
  let main_v7 : IVec S_ 1 := (fun x v => Host.reduce IntOp.andi x v reducesTo_S208x208_S_d0_1 h_S_) main_v6 main_c_1
  let main_v8 : IVec S_ 1 := andi main_v3 main_v7
  let main_v9 : FVec F S208 .f32 := Host.absf main_arg2
  let main_cst_2 : FVec F S_ .f32 := constant S_ .f32 0x7F800000#32
  let main_v10 : FVec F S208 .f32 := broadcastInDim S208 ![] bcast_S_S208 main_cst_2
  let main_v11 : IVec S208 1 := cmpf .olt main_v9 main_v10
  let main_c_3 : IVec S_ 1 := constantI S_ 1 1#1
  let main_v12 : IVec S_ 1 := (fun x v => Host.reduce IntOp.andi x v reducesTo_S208_S_d0 h_S_) main_v11 main_c_3
  let main_v13 : IVec S_ 1 := andi main_v8 main_v12
  let main_v14 : FVec F S208x208 .f32 := Host.absf main_arg3
  let main_cst_4 : FVec F S_ .f32 := constant S_ .f32 0x7F800000#32
  let main_v15 : FVec F S208x208 .f32 := broadcastInDim S208x208 ![] bcast_S_S208x208 main_cst_4
  let main_v16 : IVec S208x208 1 := cmpf .olt main_v14 main_v15
  fn_part1 (F := F) main_v13 main_v16
-- ==== Kernel.lean ====
abbrev S64x2048x208 : Shape := ⟨3, ![64, 2048, 208]⟩
abbrev S208x208 : Shape := ⟨2, ![208, 208]⟩
abbrev S208 : Shape := ⟨1, ![208]⟩
abbrev S131072x208 : Shape := ⟨2, ![131072, 208]⟩
abbrev S1x208 : Shape := ⟨2, ![1, 208]⟩
abbrev S4096x208 : Shape := ⟨2, ![4096, 208]⟩

abbrev nBuf : Space → Nat
  | .hbm => 8
  | .vmem => 7
  | .smem => 0
  | _ => 0

abbrev bufTy : (tb : Table) → Fin (tcTables nBuf tb) → BufTy
  | .hbm, ⟨0, _⟩ => ⟨S64x2048x208, .f32⟩
  | .hbm, ⟨1, _⟩ => ⟨S208x208, .f32⟩
  | .hbm, ⟨2, _⟩ => ⟨S208, .f32⟩
  | .hbm, ⟨3, _⟩ => ⟨S208x208, .f32⟩
  | .hbm, ⟨4, _⟩ => ⟨S131072x208, .f32⟩
  | .hbm, ⟨5, _⟩ => ⟨S1x208, .f32⟩
  | .hbm, ⟨6, _⟩ => ⟨S131072x208, .f32⟩
  | .hbm, ⟨7, _⟩ => ⟨S64x2048x208, .f32⟩
  | .local _ .vmem, ⟨0, _⟩ => ⟨S4096x208, .f32⟩
  | .local _ .vmem, ⟨1, _⟩ => ⟨S4096x208, .f32⟩
  | .local _ .vmem, ⟨2, _⟩ => ⟨S208x208, .f32⟩
  | .local _ .vmem, ⟨3, _⟩ => ⟨S208x208, .f32⟩
  | .local _ .vmem, ⟨4, _⟩ => ⟨S1x208, .f32⟩
  | .local _ .vmem, ⟨5, _⟩ => ⟨S4096x208, .f32⟩
  | .local _ .vmem, ⟨6, _⟩ => ⟨S4096x208, .f32⟩
  | _, _ => ⟨S64x2048x208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x208 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S208x208 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S208x208 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x208 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x208 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x2048x208_S131072x208 : S64x2048x208.ShapeCasts S131072x208
  shapeCasts_S208_S1x208 : S208.ShapeCasts S1x208
  inb_S208x208_S208x208_0_0 : ∀ a, (![0, 0] : Fin 2 → Nat) a + S208x208.size a ≤ S208x208.size a
  h_S208x208 : 0 < S208x208.numel
  bitsLt_bf16_f32 : FTy.bits .bf16 < FTy.bits .f32
  inb_S4096x208_S4096x208_0_0 : ∀ a, (![0, 0] : Fin 2 → Nat) a + S4096x208.size a ≤ S4096x208.size a
  h_S4096x208 : 0 < S4096x208.numel
  shapeCasts_S4096x208_S4096x208 : S4096x208.ShapeCasts S4096x208
  inb_S1x208_S1x208_0_0 : ∀ a, (![0, 0] : Fin 2 → Nat) a + S1x208.size a ≤ S1x208.size a
  h_S1x208 : 0 < S1x208.numel
  shapeCasts_S1x208_S1x208 : S1x208.ShapeCasts S1x208
  broadcasts_S1x208_S4096x208 : S1x208.Broadcasts S4096x208
  shapeCasts_S131072x208_S64x2048x208 : S131072x208.ShapeCasts S64x2048x208
  dot_S4096x208_S208x208_S4096x208_1_0_0_1_n_n_wf : DotDims.WF S4096x208 S208x208 S4096x208 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x208.size a ≤ S131072x208.size a
  hwx0_0 : ∀ i : grid0.Coords, EltTy.bits .f32 = 32 ∨ (Rect.block (s := S131072x208) S4096x208.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S208x208.size a ≤ S208x208.size a
  hwx0_1 : ∀ i : grid0.Coords, EltTy.bits .f32 = 32 ∨ (Rect.block (s := S208x208) S208x208.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S208x208.size a ≤ S208x208.size a
  hwx0_2 : ∀ i : grid0.Coords, EltTy.bits .f32 = 32 ∨ (Rect.block (s := S208x208) S208x208.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x208.size a ≤ S1x208.size a
  hwx0_3 : ∀ i : grid0.Coords, EltTy.bits .f32 = 32 ∨ (Rect.block (s := S1x208) S1x208.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x208.size a ≤ S131072x208.size a
  hwx0_4 : ∀ i : grid0.Coords, EltTy.bits .f32 = 32 ∨ (Rect.block (s := S131072x208) S4096x208.size (cc0_transform_4 i) (hinb0_4 i)).WholeWords (EltTy.packing .f32)

variable [Facts₀]

def dot_S4096x208_S208x208_S4096x208_1_0_0_1_n_n : DotDims S4096x208 S208x208 S4096x208 where
  lhsContracting := [1]
  rhsContracting := [0]
  lhsNonContracting := [0]
  rhsNonContracting := [1]
  lhsBatch := []
  rhsBatch := []
  wf := dot_S4096x208_S208x208_S4096x208_1_0_0_1_n_n_wf

abbrev win0_0 : Pipeline.Window sig grid0 :=
  Pipeline.Window.ofSpec (Memref.whole main_v0) S4096x208.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S208x208.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S208x208.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x208.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x208.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x208 : Shape := ⟨3, ![64, 2048, 208]⟩
abbrev S208x208 : Shape := ⟨2, ![208, 208]⟩
abbrev S208 : Shape := ⟨1, ![208]⟩
abbrev S1x1x208 : Shape := ⟨3, ![1, 1, 208]⟩

abbrev nBuf : Space → Nat
  | .hbm => 9
  | .vmem => 0
  | .smem => 0
  | _ => 0

abbrev bufTy : (tb : Table) → Fin (tcTables nBuf tb) → BufTy
  | .hbm, ⟨0, _⟩ => ⟨S64x2048x208, .f32⟩
  | .hbm, ⟨1, _⟩ => ⟨S208x208, .f32⟩
  | .hbm, ⟨2, _⟩ => ⟨S208, .f32⟩
  | .hbm, ⟨3, _⟩ => ⟨S208x208, .f32⟩
  | .hbm, ⟨4, _⟩ => ⟨S208x208, .f32⟩
  | .hbm, ⟨5, _⟩ => ⟨S64x2048x208, .f32⟩
  | .hbm, ⟨6, _⟩ => ⟨S1x1x208, .f32⟩
  | .hbm, ⟨7, _⟩ => ⟨S64x2048x208, .f32⟩
  | .hbm, ⟨8, _⟩ => ⟨S64x2048x208, .f32⟩
  | _, _ => ⟨S64x2048x208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S208_S1x1x208_2 : S208.BroadcastsInDim S1x1x208 (![2] : Fin 1 → Fin S1x1x208.rank)
  bcast_S1x1x208_S64x2048x208_0_1_2 : S1x1x208.BroadcastsInDim S64x2048x208 (![0, 1, 2] : Fin 3 → Fin S64x2048x208.rank)
  dot_S64x2048x208_S208x208_S64x2048x208_2_0_01_1_n_n_wf : DotDims.WF S64x2048x208 S208x208 S64x2048x208 [2] [0] [0, 1] [1] [] []

variable [Facts₀]

def dot_S64x2048x208_S208x208_S64x2048x208_2_0_01_1_n_n : DotDims S64x2048x208 S208x208 S64x2048x208 where
  lhsContracting := [2]
  rhsContracting := [0]
  lhsNonContracting := [0, 1]
  rhsNonContracting := [1]
  lhsBatch := []
  rhsBatch := []
  wf := dot_S64x2048x208_S208x208_S64x2048x208_2_0_01_1_n_n_wf

class Facts : Prop extends Facts₀ where

variable [Facts]
-- ==== Proof.Spec.lean ====
/-
  The function both programs compute, stated once and free of either program.

  For a batch of node-feature rows `x[b,t,·]`, a mixing matrix `W`, a second matrix `S` of the same shape that masks it entrywise
  (any matrix: nothing below uses what its entries are) and a bias vector, the result is
      out[b,t,j] = Σ_k x[b,t,k] · (S[k,j] · W[k,j]) + bias[j]
  on the extended reals.  One output entry depends on one row of `x`, one column of `S` and of `W`, and one bias
  entry: `entry`.  The kernel works on the rows flattened, `r = b·2048 + t`, with the bias as a 1×208 row
  (`mixRows`); the reference works on the batched array (`mix`).  `unflatten_mixRows` is the only law needed between
  the two: re-laying an array in row-major order moves no element, so reading the flattened result back at
  `(b,t,j)` is reading row `b·2048 + t`.  No arithmetic law of the extended reals is used: both sides sum the same
  products in the same order.
-/
import Idealize.ShloMosaic.PureOps.Ideal
import Idealize.ShloMosaic.Lib.ValueIdx
import Idealize.ShloMosaic.Lib.Pipeline.Value

noncomputable section

namespace Cert.MaskedMix

open Idealize.ShloMosaic Idealize.ShloMosaic.ValueIdx

/-- The batched array `[64, 2048, 208]`. -/
abbrev SBatch : Shape := ⟨3, ![64, 2048, 208]⟩
/-- Its rows flattened, `[64·2048, 208]`. -/
abbrev SRows : Shape := ⟨2, ![131072, 208]⟩
/-- The node-by-node matrices `W` and `S`. -/
abbrev SSq : Shape := ⟨2, ![208, 208]⟩
/-- The bias as a vector, -/
abbrev SVec : Shape := ⟨1, ![208]⟩
/-- and as a one-row matrix. -/
abbrev SRow : Shape := ⟨2, ![1, 208]⟩

/-- One output entry: a row of features against a masked column of weights, plus the bias. -/
def entry (xr sr wr : Fin 208 → EReal) (β : EReal) : EReal :=
  (∑ k : Fin 208, xr k * (sr k * wr k)) + β

/-- Entries agree when their rows, columns and bias agree pointwise. -/
theorem entry_congr {xr xr' sr sr' wr wr' : Fin 208 → EReal} {β β' : EReal}
    (hx : ∀ k, xr k = xr' k) (hs : ∀ k, sr k = sr' k) (hw : ∀ k, wr k = wr' k) (hβ : β = β') :
    entry xr sr wr β = entry xr' sr' wr' β' := by
  unfold entry
  rw [hβ]
  exact congrArg (· + β') (Finset.sum_congr rfl fun k _ => by rw [hx k, hs k, hw k])

/-- The result over flattened rows: entry `(r, j)` from row `r` of `X`, column `j` of `S` and `W`, and `B[0, j]`. -/
def mixRows (X : SRows.Idx → EReal) (S W : SSq.Idx → EReal) (B : SRow.Idx → EReal) : SRows.Idx → EReal :=
  fun i => entry (fun k => X (ix2 (⟨(i 0).val, (i 0).isLt⟩ : Fin 131072) k))
    (fun k => S (ix2 k (⟨(i 1).val, (i 1).isLt⟩ : Fin 208))) (fun k => W (ix2 k (⟨(i 1).val, (i 1).isLt⟩ : Fin 208)))
    (B (ix2 (0 : Fin 1) (⟨(i 1).val, (i 1).isLt⟩ : Fin 208)))

theorem mixRows_apply (X : SRows.Idx → EReal) (S W : SSq.Idx → EReal) (B : SRow.Idx → EReal) (r : Fin 131072) (j : Fin 208) :
    mixRows X S W B (ix2 r j)
      = entry (fun k => X (ix2 r k)) (fun k => S (ix2 k j)) (fun k => W (ix2 k j)) (B (ix2 (0 : Fin 1) j)) := rfl

/-- The result over the batched array: entry `(b, t, j)` from the feature row `x[b, t, ·]`. -/
def mix (x : SBatch.Idx → EReal) (S W : SSq.Idx → EReal) (bias : SVec.Idx → EReal) : SBatch.Idx → EReal :=
  fun i => entry (fun k => x (ix3 (⟨(i 0).val, (i 0).isLt⟩ : Fin 64) (⟨(i 1).val, (i 1).isLt⟩ : Fin 2048) k))
    (fun k => S (ix2 k (⟨(i 2).val, (i 2).isLt⟩ : Fin 208))) (fun k => W (ix2 k (⟨(i 2).val, (i 2).isLt⟩ : Fin 208)))
    (bias (ix1 (⟨(i 2).val, (i 2).isLt⟩ : Fin 208)))

theorem mix_apply (x : SBatch.Idx → EReal) (S W : SSq.Idx → EReal) (bias : SVec.Idx → EReal)
    (b : Fin 64) (t : Fin 2048) (j : Fin 208) :
    mix x S W bias (ix3 b t j)
      = entry (fun k => x (ix3 b t k)) (fun k => S (ix2 k j)) (fun k => W (ix2 k j)) (bias (ix1 j)) := rfl

/-- Row-major position `(b·2048 + t)·208 + k` is shared by `(b, t, k)` of the batched array and `(b·2048 + t, k)` of
    the flattened one, so the flattened array read at the latter is the batched one at the former. -/
theorem flatten_apply (x : SBatch.Idx → EReal) (h : SBatch.ShapeCasts SRows) (b : Fin 64) (t : Fin 2048) (k : Fin 208)
    (hr : b.val * 2048 + t.val < 131072) :
    shapeCast SRows x h (ix2 (⟨b.val * 2048 + t.val, hr⟩ : Fin 131072) k) = x (ix3 b t k) :=
  shapeCast_apply x h _ (ix3 b t k) (by rw [Shape.rowMajor_val_two, Shape.rowMajor_val_three]; rfl)

/-- The bias vector re-laid as one row reads entry `j` at `(0, j)`. -/
theorem asRow_apply (bias : SVec.Idx → EReal) (h : SVec.ShapeCasts SRow) (j : Fin 208) :
    shapeCast SRow bias h (ix2 (0 : Fin 1) j) = bias (ix1 j) :=
  shapeCast_apply bias h _ (ix1 j) (by
    rw [Shape.rowMajor_val_one, Shape.rowMajor_val_two]
    show j.val = 0 * 208 + j.val
    omega)

/-- THE LAW BETWEEN THE TWO FORMS.  Flatten the features, lay the bias as a row, compute row by row, and re-lay
    the result as a batch: that is the batched result.  Every step moves elements without changing them. -/
theorem unflatten_mixRows (x : SBatch.Idx → EReal) (S W : SSq.Idx → EReal) (bias : SVec.Idx → EReal)
    (h1 : SBatch.ShapeCasts SRows) (h2 : SVec.ShapeCasts SRow) (h3 : SRows.ShapeCasts SBatch) :
    shapeCast SBatch (mixRows (shapeCast SRows x h1) S W (shapeCast SRow bias h2)) h3 = mix x S W bias := by
  funext i
  obtain ⟨b, t, j, rfl⟩ : ∃ (b : Fin 64) (t : Fin 2048) (j : Fin 208), i = ix3 b t j := ⟨i 0, i 1, i 2, eq_ix3 i⟩
  have hr : b.val * 2048 + t.val < 131072 := by have hb := b.isLt; have ht := t.isLt; omega
  refine (shapeCast_apply _ h3 (ix3 b t j) (ix2 (⟨b.val * 2048 + t.val, hr⟩ : Fin 131072) j)
    (by rw [Shape.rowMajor_val_two, Shape.rowMajor_val_three]; rfl)).trans ?_
  rw [mixRows_apply, mix_apply]
  exact entry_congr (fun k => flatten_apply x h1 b t k hr) (fun _ => rfl) (fun _ => rfl) (asRow_apply bias h2 j)

end Cert.MaskedMix

end
-- ==== Proof.Payload.lean ====
/-
  What the kernel body stores, entry by entry.

  At a grid point the body holds a block of 4096 feature rows `xb`, the whole mask `S` and weights `W`, and the bias
  as one row.  It multiplies `S` and `W` entrywise, feeds the features and that product to the matrix unit with a zero
  accumulator, and adds the bias row repeated down the 4096 rows.  Narrowing a float to fewer bits changes
  nothing on the extended reals, and re-laying a block in its own shape moves nothing, so entry `(p, j)` of what is
  stored is
      Σ_k xb[p,k] · (S[k,j] · W[k,j]) + brow[0,j],
  the matrix product into a zero accumulator being exactly the sum over the contracted axis.
-/
import proofs.«104986_j52587579572679_2_alg».proof.Proof.Gen.KernelIdeal.Skeleton
import proofs.«104986_j52587579572679_2_alg».proof.Proof.Spec
import Idealize.ShloMosaic.Lib.ValueIdx
import Idealize.ShloMosaic.Lib.Pipeline.Value
import Idealize.ShloMosaic.PureOps.Ideal.Laws

noncomputable section

namespace Cert.MaskedMix.Body

open Idealize.ShloMosaic Idealize.ShloMosaic.ValueIdx Cert.KernelIdeal Cert.KernelIdeal.Gen Cert.MaskedMix

/-- The body's one matrix product: `[4096, 208] × [208, 208]`, contracting the features' columns with the weights' rows. -/
abbrev MM : DotDims S4096x208 S208x208 S4096x208 := dot_S4096x208_S208x208_S4096x208_1_0_0_1_n_n

/-- Output entry `(p, j)` reads the left operand in row `p`, -/
theorem lhs_row (i : S4096x208.Idx) (q : MM.contr.Idx) : (MM.lhsIdx i q 0).val = (i 0).val := by
  unfold DotDims.lhsIdx
  rw [dif_neg (show ¬(0 : Fin S4096x208.rank) ∈ MM.lhsBatch by decide), dif_pos (show (0 : Fin S4096x208.rank) ∈ MM.lhsNonContracting by decide)]
  rfl
/-- at the contracted position; -/
theorem lhs_col (i : S4096x208.Idx) (q : MM.contr.Idx) : (MM.lhsIdx i q 1).val = (q ⟨0, by decide⟩).val :=
  MM.lhsIdx_val_of_single rfl i q
/-- the right operand at the contracted position, -/
theorem rhs_row (i : S4096x208.Idx) (q : MM.contr.Idx) : (MM.rhsIdx i q 0).val = (q ⟨0, by decide⟩).val :=
  MM.rhsIdx_val_of_single rfl i q
/-- in column `j`. -/
theorem rhs_col (i : S4096x208.Idx) (q : MM.contr.Idx) : (MM.rhsIdx i q 1).val = (i 1).val := by
  unfold DotDims.rhsIdx
  rw [dif_neg (show ¬(1 : Fin S208x208.rank) ∈ MM.rhsBatch by decide), dif_pos (show (1 : Fin S208x208.rank) ∈ MM.rhsNonContracting by decide)]
  rfl

/-- The matrix product into a zero accumulator, at `(p, j)`, is the sum over `k` of `l[p,k] · r[k,j]`. -/
theorem product_apply (l : FVec Ideal S4096x208 .bf16) (r : FVec Ideal S208x208 .bf16) (p : Fin 4096) (j : Fin 208) :
    matmul MM none l r (constant (F := Ideal) S4096x208 .f32 0x00000000#32) (ix2 p j)
      = ∑ k : Fin 208, l (ix2 p k) * r (ix2 k j) := by
  refine (Ideal.matmul_constant_zero_apply MM none l r (ix2 p j)).trans ?_
  rw [← Equiv.sum_comp (contrEquiv1 MM 208 rfl rfl).symm]
  refine Finset.sum_congr rfl fun k _ => ?_
  have hk := contrEquiv1_symm_val MM 208 rfl rfl k
  have el : MM.lhsIdx (ix2 p j) ((contrEquiv1 MM 208 rfl rfl).symm k) = ix2 p k := funext fun a => Fin.ext (by
    match a with
    | ⟨0, _⟩ => exact lhs_row _ _
    | ⟨1, _⟩ => exact (lhs_col _ _).trans hk)
  have er : MM.rhsIdx (ix2 p j) ((contrEquiv1 MM 208 rfl rfl).symm k) = ix2 k j := funext fun a => Fin.ext (by
    match a with
    | ⟨0, _⟩ => exact (rhs_row _ _).trans hk
    | ⟨1, _⟩ => exact rhs_col _ _)
  rw [el, er]

/-- The bias row repeated down the block reads `brow[0, j]` in every row. -/
theorem biasRows_apply (brow : FVec Ideal S1x208 .f32) (p : Fin 4096) (j : Fin 208) :
    broadcastTo S4096x208 brow broadcasts_S1x208_S4096x208 (ix2 p j) = brow (ix2 (0 : Fin 1) j) :=
  broadcastTo_apply brow broadcasts_S1x208_S4096x208 (ix2 p j) (ix2 (0 : Fin 1) j) (fun a => match a with
    | ⟨0, _⟩ => by show 0 = if (1 : Nat) = 1 then 0 else p.val; rw [if_pos rfl]
    | ⟨1, _⟩ => by show j.val = if (208 : Nat) = 1 then 0 else j.val; rw [if_neg (by decide)])

/-- THE STORED BLOCK, ENTRY BY ENTRY: the entry of the feature row `p` of the block against column `j`. -/
theorem stored_apply (S W : Vec Ideal S208x208 .f32) (xb : Vec Ideal S4096x208 .f32) (brow : Vec Ideal S1x208 .f32)
    (p : Fin 4096) (j : Fin 208) :
    k0_pay1 (F := Ideal) S W xb brow (ix2 p j)
      = entry (fun k => xb (ix2 p k)) (fun k => S (ix2 k j)) (fun k => W (ix2 k j)) (brow (ix2 (0 : Fin 1) j)) := by
  unfold k0_pay1
  show matmul MM none (truncf .bf16 (shapeCast S4096x208 xb shapeCasts_S4096x208_S4096x208) bitsLt_bf16_f32)
      (truncf .bf16 (mulf S W) bitsLt_bf16_f32) (constant (F := Ideal) S4096x208 .f32 0x00000000#32) (ix2 p j)
    + broadcastTo S4096x208 (shapeCast S1x208 brow shapeCasts_S1x208_S1x208) broadcasts_S1x208_S4096x208 (ix2 p j) = _
  refine congrArg₂ (· + ·) ((product_apply _ _ p j).trans ?_) ((congrArg (fun v => broadcastTo S4096x208 v broadcasts_S1x208_S4096x208 (ix2 p j))
    (shapeCast_self brow shapeCasts_S1x208_S1x208)).trans (biasRows_apply brow p j))
  refine Finset.sum_congr rfl fun k _ => ?_
  show shapeCast S4096x208 xb shapeCasts_S4096x208_S4096x208 (ix2 p k) * (S (ix2 k j) * W (ix2 k j)) = _
  rw [shapeCast_self]

end Cert.MaskedMix.Body

end
-- ==== Proof.Blocks.lean ====
/-
  From blocks to the array: what the 32 grid points together leave in the kernel's output array.

  Grid point `t` is handed rows `4096·t … 4096·t + 4095` of the flattened features, the whole of `S` and of `W`, and
  the whole bias row; it writes back rows `4096·t … 4096·t + 4095` of the output.  By the entry-by-entry reading of the
  body, what it writes at `(p, j)` is the entry of feature row `4096·t + p` against column `j` — that is, block `t` of
  the ONE whole-array function `mixRows` of the arrays as the region finds them.  The 32 row blocks tile the
  `131072 = 32 · 4096` rows (row `r` lies in block `r / 4096`), so after the last point the array is `mixRows`.
-/
import proofs.«104986_j52587579572679_2_alg».proof.Proof.Gen.KernelIdeal.Frame
import proofs.«104986_j52587579572679_2_alg».proof.Proof.Payload
import Idealize.ShloMosaic.Lib.Pipeline.Value

noncomputable section

namespace Cert.MaskedMix.Blocks

open Idealize.ShloMosaic Idealize.ShloMosaic.TcCoe Idealize.SL.Sem Idealize.ShloMosaic.ValueIdx
open Idealize.ShloMosaic.Pipeline (Dat)
open Cert.KernelIdeal Cert.KernelIdeal.Gen Cert.MaskedMix

variable (m : (ℓ : Loc nD τ sig) → Buf (Elt Ideal) ℓ)

theorem hz : (![0, 0] : Fin 2 → Nat) = fun _ => 0 := funext fun a => by fin_cases a <;> rfl

/-- Where each window's block sits at point `t`, decided over the 32 points: the features' and the output's blocks
    are the `t`-th row blocks, and the mask, the weights and the bias row are always block `(0, 0)`, the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the features' block at point `t` is row `4096·t + p` of the flattened features. -/
theorem rows_block (c : Dev nD) (t : Fin cfg0.N) (p : Fin 4096) (k : Fin 208) (hr : t.val * 4096 + p.val < 131072) :
    (iblk m c 0 t : Vec Ideal S4096x208 .f32) (ix2 p k)
      = (V m c main_v0 : S131072x208.Idx → EReal) (ix2 (⟨t.val * 4096 + p.val, hr⟩ : Fin 131072) k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 208 + 1 * k.val = k.val; omega

/-- The mask's block is the mask. -/
theorem mask_block (c : Dev nD) (t : Fin cfg0.N) (k j : Fin 208) :
    (iblk m c 1 t : Vec Ideal S208x208 .f32) (ix2 k j) = (V m c main_arg3 : S208x208.Idx → EReal) (ix2 k j) := by
  obtain ⟨-, -, e2, e3, -⟩ := idx_facts t
  unfold iblk
  rw [View.read_apply]
  show V m c main_arg3 _ = V m c main_arg3 _
  refine congrArg (V m c main_arg3) (funext fun a => Fin.ext ?_)
  match a with
  | ⟨0, _⟩ => show win0_1.index t (0 : Fin 2) * 208 + 1 * k.val = k.val; omega
  | ⟨1, _⟩ => show win0_1.index t (1 : Fin 2) * 208 + 1 * j.val = j.val; omega

/-- The weights' block is the weights. -/
theorem weight_block (c : Dev nD) (t : Fin cfg0.N) (k j : Fin 208) :
    (iblk m c 2 t : Vec Ideal S208x208 .f32) (ix2 k j) = (V m c main_arg1 : S208x208.Idx → EReal) (ix2 k j) := by
  obtain ⟨-, -, -, -, e4, e5, -⟩ := idx_facts t
  unfold iblk
  rw [View.read_apply]
  show V m c main_arg1 _ = V m c main_arg1 _
  refine congrArg (V m c main_arg1) (funext fun a => Fin.ext ?_)
  match a with
  | ⟨0, _⟩ => show win0_2.index t (0 : Fin 2) * 208 + 1 * k.val = k.val; omega
  | ⟨1, _⟩ => show win0_2.index t (1 : Fin 2) * 208 + 1 * j.val = j.val; omega

/-- The bias row's block is the bias row. -/
theorem bias_block (c : Dev nD) (t : Fin cfg0.N) (j : Fin 208) :
    (iblk m c 3 t : Vec Ideal S1x208 .f32) (ix2 (0 : Fin 1) j) = (V m c main_v1 : S1x208.Idx → EReal) (ix2 (0 : Fin 1) j) := by
  obtain ⟨-, -, -, -, -, -, e6, e7, -⟩ := idx_facts t
  unfold iblk
  rw [View.read_apply]
  show V m c main_v1 _ = V m c main_v1 _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 208 + 1 * j.val = j.val; omega

/-- WHAT POINT `t` WRITES BACK is block `t` of `mixRows` of the arrays as the region finds them. -/
theorem flushed_eq (c : Dev nD) (t : Fin cfg0.N) :
    (dats m 0 c).flushed 4 t = ((cfg0.win 4).blk t).view.read (Elt Ideal)
      (mixRows (V m c main_v0) (V m c main_arg3) (V m c main_arg1) (V m c main_v1)) := by
  show (cfg0.win 4).cut (grid0.coords t) ((dats m 0 c).after 4 t) = _
  rw [after0_4]
  unfold out0_4
  rw [View.canon_unit_zero hz]
  simp only [View.ld_unit_zero (S := S208x208) hz, View.ld_unit_zero (S := S4096x208) hz, View.ld_unit_zero (S := S1x208) hz]
  obtain ⟨-, -, -, -, -, -, -, -, e8, e9⟩ := idx_facts t
  have hN : cfg0.N = 32 := N_0
  funext y
  obtain ⟨p, j, rfl⟩ : ∃ (p : Fin 4096) (j : Fin 208), y = ix2 p j := ⟨y 0, y 1, eq_ix2 y⟩
  have hr : t.val * 4096 + p.val < 131072 := by have := t.isLt; have := p.isLt; omega
  show k0_pay1 (F := Ideal) (iblk m c 1 t) (iblk m c 2 t) (iblk m c 0 t) (iblk m c 3 t) (ix2 p j) = _
  refine (Body.stored_apply (iblk m c 1 t) (iblk m c 2 t) (iblk m c 0 t) (iblk m c 3 t) p j).trans ?_
  rw [View.read_apply]
  have he : ((cfg0.win 4).blk t).view.emb (ix2 p j) = ix2 (⟨t.val * 4096 + p.val, hr⟩ : Fin 131072) j :=
    funext fun a => Fin.ext (by
      match a with
      | ⟨0, _⟩ => show win0_4.index t (0 : Fin 2) * 4096 + 1 * p.val = t.val * 4096 + p.val; omega
      | ⟨1, _⟩ => show win0_4.index t (1 : Fin 2) * 208 + 1 * j.val = j.val; omega)
  rw [he, mixRows_apply]
  exact entry_congr (fun k => rows_block m c t p k hr) (fun k => mask_block m c t k j) (fun k => weight_block m c t k j)
    (bias_block m c t j)

/-- An index of the output array lies in point `t`'s block iff each coordinate is in the block's range on its axis. -/
theorem mem_blk (t : Fin cfg0.N) (i : S131072x208.Idx) :
    i ∈ ((cfg0.win 4).blk t).view.set ↔ ∀ a : Fin 2, win0_4.index t a * S4096x208.size a ≤ (i a).val
      ∧ (i a).val < win0_4.index t a * S4096x208.size a + S4096x208.size a := by
  show i ∈ ((View.whole main_v2).slice (win0_4.rect t)).set ↔ _
  rw [View.set_slice_whole, Rect.mem_set_unit]
  exact Iff.rfl

/-- Every index is written back by some point: row `r` by point `r / 4096`. -/
theorem cover (i : S131072x208.Idx) :
    ∃ t : Fin cfg0.N, (cfg0.win 4).flush t = true ∧ i ∈ ((cfg0.win 4).blk t).view.set := by
  have hN : cfg0.N = 32 := N_0
  have hi0 : (i 0).val < 131072 := (i 0).isLt
  have hi1 : (i 1).val < 208 := (i 1).isLt
  obtain ⟨t, ht⟩ : ∃ t : Fin cfg0.N, t.val = (i 0).val / 4096 := ⟨⟨(i 0).val / 4096, by rw [hN]; omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 208 ≤ (i 1).val ∧ (i 1).val < win0_4.index t (1 : Fin 2) * 208 + 208; omega

/-- THE OUTPUT ARRAY after the last point is `mixRows` of the arrays as the region finds them. -/
theorem final (c : Dev nD) :
    (dats m 0 c).arrAt 4 cfg0.N = mixRows (V m c main_v0) (V m c main_arg3) (V m c main_arg1) (V m c main_v1) :=
  (dats m 0 c).arrAt_eq_of_cover 4 _ (fun t _ => flushed_eq m c t) cover

end Cert.MaskedMix.Blocks

end
-- ==== Proof.HostSides.lean ====
/-
  The re-layings around the region.

  Before the region the program flattens the batched features `[64, 2048, 208]` to rows `[131072, 208]` and lays the
  bias vector `[208]` as one row `[1, 208]`; these two arrays are what the region's first and fourth windows read.
  After the region it lays the `[131072, 208]` output back as a batch.  Each is a row-major re-laying: the same
  elements under another shape.  The mask and the weights reach the region as launched.
-/
import proofs.«104986_j52587579572679_2_alg».proof.Proof.Gen.KernelIdeal.Frame
import Idealize.ShloMosaic.Lib.Pipeline.Value
import Idealize.ShloMosaic.Lib.StableHlo.Run
import Idealize.ShloMosaic.PureOps.Ideal

noncomputable section

namespace Cert.MaskedMix.HostSides

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- The region finds the features flattened to rows. -/
theorem features_flat (c : Dev nD) : (V m c main_v0 : S131072x208.Idx → EReal)
    = shapeCast S131072x208 (m ((c.tc : Thread nD τ).loc main_arg0)) shapeCasts_S64x2048x208_S131072x208 := by
  show StableHlo.after hostOps0 (fun b => m (c, b)) (Proc.devRef .tc main_v0) = _
  after_results
  rfl

/-- The region finds the bias laid as one row. -/
theorem bias_row (c : Dev nD) : (V m c main_v1 : S1x208.Idx → EReal)
    = shapeCast S1x208 (m ((c.tc : Thread nD τ).loc main_arg2)) shapeCasts_S208_S1x208 := by
  show StableHlo.after hostOps0 (fun b => m (c, b)) (Proc.devRef .tc main_v1) = _
  after_results
  rfl

/-- The program's result is the region's output array laid back as a batch: the line after the region reads the
    array as the region left it, and the region left its output window's array at what the grid points wrote. -/
theorem result_tail (c : Dev nD) :
    (Pipeline.afterTail₀ cfgs (dats m) 0 (V0 m) [hostOps1] c main_v3 : S64x2048x208.Idx → EReal)
      = shapeCast S64x2048x208 ((dats m 0 c).arrAt 4 cfg0.N) shapeCasts_S131072x208_S64x2048x208 := by
  unfold Pipeline.afterTail₀
  show StableHlo.after hostOps1 _ (Proc.devRef .tc main_v3) = _
  after_results
  show shapeCast S64x2048x208 (Pipeline.withArrays spec0 c (V0 m c) (fun w => (dats m 0 c).arrAt w cfg0.N)
      (Proc.devRef .tc (Pipeline.arrRef spec0 4))) shapeCasts_S131072x208_S64x2048x208 = _
  rw [Pipeline.withArrays_arr spec0 launch0.win.arr_inj c]

end Cert.MaskedMix.HostSides

end
-- ==== Proof.KernelRun.lean ====
/-
  The idealized kernel's run, with its result named.

  Put together: the result is the region's output array laid back as a batch; that array is `mixRows` of the
  flattened features, the mask, the weights and the bias row; and re-laying `mixRows` of re-laid arguments is `mix`
  of the arguments themselves.  So every fair execution ends with the result buffer at
      out[b,t,j] = Σ_k x[b,t,k] · (S[k,j] · W[k,j]) + bias[j]
  and the four arguments as launched.
-/
import proofs.«104986_j52587579572679_2_alg».proof.Proof.Blocks
import proofs.«104986_j52587579572679_2_alg».proof.Proof.HostSides
import proofs.«104986_j52587579572679_2_alg».proof.Proof.Spec

noncomputable section

namespace Cert.MaskedMix.Kernel

open Idealize.ShloMosaic Idealize.ShloMosaic.TcCoe Idealize.SL.Sem
open Idealize.ShloMosaic.Pipeline (Dat)
open Cert.KernelIdeal Cert.KernelIdeal.Gen Cert.MaskedMix

variable (m : (ℓ : Loc nD τ sig) → Buf (Elt Ideal) ℓ) (ρ : Dev nD → PrngReg)

/-- The program's result, as a function of its arguments as launched. -/
theorem result_eq (c : Dev nD) :
    (Pipeline.afterTail₀ cfgs (dats m) 0 (V0 m) [hostOps1] c main_v3 : S64x2048x208.Idx → EReal)
      = mix (m ((c.tc : Thread nD τ).loc main_arg0)) (m ((c.tc : Thread nD τ).loc main_arg3))
          (m ((c.tc : Thread nD τ).loc main_arg1)) (m ((c.tc : Thread nD τ).loc main_arg2)) := by
  rw [HostSides.result_tail, Blocks.final, HostSides.features_flat, HostSides.bias_row, V_main_arg3, V_main_arg1]
  exact unflatten_mixRows _ _ _ _ _ _ _

/-- Every weakly fair execution of the idealized kernel's program terminates with the result at `mix` of the
    arguments and the arguments unchanged. -/
theorem run : θ_run defs (onTc (τ := τ) (main (F := Ideal))) ⟨m, fun _ => 0, ρ⟩ fun r => ∀ c : Dev nD,
      r.2.mem ((c.tc : Thread nD τ).loc main_v3)
        = mix (m ((c.tc : Thread nD τ).loc main_arg0)) (m ((c.tc : Thread nD τ).loc main_arg3))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.MaskedMix.Kernel

end
-- ==== Proof.RefMix.lean ====
/-
  The reference computes the batched form.

  Its five operations are: the entrywise product `S · W`; the contraction of the last axis of `x` with the first
  axis of that product; the bias laid along the last axis of a `[1, 1, 208]` array and then repeated over the two
  leading axes; the sum of the two.  Read at an index `(b, t, j)` this is
      Σ_k x[b,t,k] · (S[k,j] · W[k,j]) + bias[j],
  which is `MaskedMix.mix` by definition: the only work is naming, coordinate by coordinate, the indices at which
  each operation reads its operands.
-/
import proofs.«104986_j52587579572679_2_alg».proof.Proof.Gen.ReferenceIdeal.Read
import proofs.«104986_j52587579572679_2_alg».proof.Proof.Spec

noncomputable section

namespace Cert.MaskedMix.Reference

open Idealize.ShloMosaic Idealize.ShloMosaic.ValueIdx Cert.ReferenceIdeal Cert.ReferenceIdeal.Read Cert.MaskedMix

/-- The contraction reads the feature row `(b, t, ·)` at `k`, -/
theorem lidx_eq (b : Fin 64) (t : Fin 2048) (j k : Fin 208) : lidx_main_v1 (ix3 b t j) k = ix3 b t k :=
  funext fun a => by match a with | ⟨0, _⟩ => rfl | ⟨1, _⟩ => rfl | ⟨2, _⟩ => rfl

/-- and column `j` of the masked weights at `k`. -/
theorem ridx_eq (b : Fin 64) (t : Fin 2048) (j k : Fin 208) : ridx_main_v1 (ix3 b t j) k = ix2 k j :=
  funext fun a => by match a with | ⟨0, _⟩ => rfl | ⟨1, _⟩ => rfl

/-- The repeated bias reads the vector at the last coordinate. -/
theorem bidx_eq (b : Fin 64) (t : Fin 2048) (j : Fin 208) : idx_main_v2 (idx_main_v3 (ix3 b t j)) = ix1 j :=
  funext fun a => by match a with | ⟨0, _⟩ => rfl

/-- The reference's result, as a function of its four arguments (features, weights, bias, mask — in the order the
    program takes them), is the batched form. -/
theorem result_eq (x : SBatch.Idx → EReal) (W : SSq.Idx → EReal) (bias : SVec.Idx → EReal) (S : SSq.Idx → EReal) :
    val_main_v4 (F := Ideal) x W bias S = mix x S W bias := by
  funext i
  obtain ⟨b, t, j, rfl⟩ : ∃ (b : Fin 64) (t : Fin 2048) (j : Fin 208), i = ix3 b t j := ⟨i 0, i 1, i 2, eq_ix3 i⟩
  rw [val_main_v4_apply, val_main_v1_apply, val_main_v3_apply, val_main_v2_apply, mix_apply, bidx_eq]
  simp only [lidx_eq, ridx_eq, val_main_v0_apply]
  rfl

end Cert.MaskedMix.Reference

end
-- ==== Proof.lean ====
/-
  A masked node-mixing layer: the tiled kernel against the one-line reference, on the extended reals.

  Both programs take features `x : [64, 2048, 208]`, weights `W : [208, 208]`, a bias `[208]` and a mask `S : [208, 208]`,
  and both compute
      out[b,t,j] = Σ_k x[b,t,k] · (S[k,j] · W[k,j]) + bias[j].
  The reference does so directly: the entrywise product `S · W`, one contraction with `x`, the bias repeated over
  the leading axes and added.  The kernel flattens `x` to `131072 = 64 · 2048` rows, cuts the rows into 32 blocks of
  4096, and at each block forms `S · W` entrywise, multiplies the block of rows by it on the matrix unit (operands
  narrowed to 16 bits, accumulating from zero into 32 bits), adds the bias row, and writes the block of results back;
  finally the rows are laid back as a batch.

  On the extended reals narrowing a float changes nothing and a matrix product from a zero accumulator is the
  plain sum over the contracted axis, so block by block the kernel writes the same sums of the same products in the
  same order as the reference, and the blocks tile the rows.  No law of arithmetic is needed — only that row-major
  re-laying moves no element (`MaskedMix.unflatten_mixRows`) — and so finiteness of the inputs is never used.

  The three frames: each kernel program runs, faults nowhere and leaves its arguments alone by the generated frame
  of its one tiled region between the re-layings; the reference by its generated run, the result forgotten.  The
  idealization rewrote nothing, so there is nothing to preserve.
-/
import proofs.«104986_j52587579572679_2_alg».proof.Defs
import proofs.«104986_j52587579572679_2_alg».proof.Proof.Gen.Kernel
import proofs.«104986_j52587579572679_2_alg».proof.Proof.Gen.Kernel.Frame
import proofs.«104986_j52587579572679_2_alg».proof.Proof.Gen.KernelIdeal
import proofs.«104986_j52587579572679_2_alg».proof.Proof.Gen.KernelIdeal.Frame
import proofs.«104986_j52587579572679_2_alg».proof.Proof.Gen.ReferenceIdeal
import proofs.«104986_j52587579572679_2_alg».proof.Proof.Gen.ReferenceIdeal.Run
import proofs.«104986_j52587579572679_2_alg».proof.Proof.Gen.ReferenceIdeal.Read
import proofs.«104986_j52587579572679_2_alg».proof.Proof.Gen.Pre_finite_inputs
import proofs.«104986_j52587579572679_2_alg».proof.Proof.KernelRun
import proofs.«104986_j52587579572679_2_alg».proof.Proof.RefMix
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, the idealized kernel ends at `mix` of its arguments and the reference
    at its own operations' term, which is `mix` of ITS arguments: the same function of equal arguments. -/
theorem algebraic : Cert.algebraic_KernelIdeal_ReferenceIdeal := by
  intro m ρ m' ρ' _ hagree
  refine ⟨fun c => Cert.MaskedMix.mix
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MaskedMix.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.MaskedMix.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
